-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x512 : Shape := ⟨2, ![32, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel

variable [Facts]

def fn {F : FTy → Type} [FloatOps F] (main_arg0 : FVec F S32x512x512 .f32) (main_arg1 : FVec F S32x512x512 .f32) (main_arg2 : IVec S32x512 1) (main_arg3 : IVec S32x512 1) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  main_v8
-- ==== Kernel.lean ====
abbrev S32x512x512 : Shape := ⟨3, ![32, 512, 512]⟩
abbrev S32x512 : Shape := ⟨2, ![32, 512]⟩
abbrev S_ : Shape := ⟨0, ![]⟩
abbrev S32x512x1 : Shape := ⟨3, ![32, 512, 1]⟩
abbrev S32x1x512 : Shape := ⟨3, ![32, 1, 512]⟩
abbrev S32x512x2048 : Shape := ⟨3, ![32, 512, 2048]⟩
abbrev S1x512x512 : Shape := ⟨3, ![1, 512, 512]⟩
abbrev S1x512x1 : Shape := ⟨3, ![1, 512, 1]⟩
abbrev S1x1x512 : Shape := ⟨3, ![1, 1, 512]⟩
abbrev S1x512x2048 : Shape := ⟨3, ![1, 512, 2048]⟩
abbrev S512x512 : Shape := ⟨2, ![512, 512]⟩
abbrev S1x512 : Shape := ⟨2, ![1, 512]⟩
abbrev S512x1 : Shape := ⟨2, ![512, 1]⟩
abbrev S512 : Shape := ⟨1, ![512]⟩

abbrev nBuf : Space → Nat
  | .hbm => 18
  | .vmem => 12
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512, .i1⟩
  | .hbm, ⟨3, _⟩ => ⟨S32x512, .i1⟩
  | .hbm, ⟨4, _⟩ => ⟨S_, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512, .f32⟩
  | .hbm, ⟨9, _⟩ => ⟨S32x512x1, .f32⟩
  | .hbm, ⟨10, _⟩ => ⟨S_, .f32⟩
  | .hbm, ⟨11, _⟩ => ⟨S_, .f32⟩
  | .hbm, ⟨12, _⟩ => ⟨S32x512, .f32⟩
  | .hbm, ⟨13, _⟩ => ⟨S32x512, .f32⟩
  | .hbm, ⟨14, _⟩ => ⟨S32x512, .f32⟩
  | .hbm, ⟨15, _⟩ => ⟨S32x1x512, .f32⟩
  | .hbm, ⟨16, _⟩ => ⟨S32x512x2048, .f32⟩
  | .hbm, ⟨17, _⟩ => ⟨S32x512x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1, .f32⟩
  | .local _ .vmem, ⟨5, _⟩ => ⟨S1x512x1, .f32⟩
  | .local _ .vmem, ⟨6, _⟩ => ⟨S1x1x512, .f32⟩
  | .local _ .vmem, ⟨7, _⟩ => ⟨S1x1x512, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_cst_2 : Ref sig .tc := ⟨.hbm, 11, rfl⟩
abbrev main_call1_v0 : Ref sig .tc := ⟨.hbm, 12, rfl⟩
abbrev main_call1_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  inb_S1x512x2048_S1x512x512_0_0_0 : ∀ a, (![0, 0, 0] : Fin 3 → Nat) a + S1x512x512.size a ≤ S1x512x2048.size a
  shapeCasts_S512x512_S1x512x512 : S512x512.ShapeCasts S1x512x512
  inb_S1x512x2048_S1x512x512_0_0_512 : ∀ a, (![0, 0, 512] : Fin 3 → Nat) a + S1x512x512.size a ≤ S1x512x2048.size a
  inb_S1x512x2048_S1x512x512_0_0_1024 : ∀ a, (![0, 0, 1024] : Fin 3 → Nat) a + S1x512x512.size a ≤ S1x512x2048.size a
  inb_S1x512x2048_S1x512x512_0_0_1536 : ∀ a, (![0, 0, 1536] : Fin 3 → Nat) a + S1x512x512.size a ≤ S1x512x2048.size a
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x512x1.size a
  hwx0_2 : ∀ i : grid0.Coords, EltTy.bits .f32 = 32 ∨ (Rect.block (s := S32x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .f32 = 32 ∨ (Rect.block (s := S32x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x512x2048.size a
  hwx0_4 : ∀ i : grid0.Coords, EltTy.bits .f32 = 32 ∨ (Rect.block (s := S32x512x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x512x2048.size a
  hwx0_5 : ∀ i : grid0.Coords, EltTy.bits .f32 = 32 ∨ (Rect.block (s := S32x512x2048) S1x512x2048.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S32x512 : Shape := ⟨2, ![32, 512]⟩
abbrev S_ : Shape := ⟨0, ![]⟩
abbrev S32x1x512 : Shape := ⟨3, ![32, 1, 512]⟩
abbrev S32x512x1 : Shape := ⟨3, ![32, 512, 1]⟩
abbrev S32x512x2048 : Shape := ⟨3, ![32, 512, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512, .i1⟩
  | .hbm, ⟨3, _⟩ => ⟨S32x512, .i1⟩
  | .hbm, ⟨4, _⟩ => ⟨S32x512x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S32x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x512, .f32⟩
  | .hbm, ⟨15, _⟩ => ⟨S32x512, .f32⟩
  | .hbm, ⟨16, _⟩ => ⟨S32x512, .f32⟩
  | .hbm, ⟨17, _⟩ => ⟨S32x1x512, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512, .f32⟩
  | .hbm, ⟨22, _⟩ => ⟨S_, .f32⟩
  | .hbm, ⟨23, _⟩ => ⟨S32x512, .f32⟩
  | .hbm, ⟨24, _⟩ => ⟨S32x512, .f32⟩
  | .hbm, ⟨25, _⟩ => ⟨S32x512x1, .f32⟩
  | .hbm, ⟨26, _⟩ => ⟨S32x512x512, .f32⟩
  | .hbm, ⟨27, _⟩ => ⟨S32x512x512, .f32⟩
  | .hbm, ⟨28, _⟩ => ⟨S32x512x512, .f32⟩
  | .hbm, ⟨29, _⟩ => ⟨S_, .f32⟩
  | .hbm, ⟨30, _⟩ => ⟨S32x512, .f32⟩
  | .hbm, ⟨31, _⟩ => ⟨S32x512x1, .f32⟩
  | .hbm, ⟨32, _⟩ => ⟨S32x512x512, .f32⟩
  | .hbm, ⟨33, _⟩ => ⟨S32x512x512, .f32⟩
  | .hbm, ⟨34, _⟩ => ⟨S32x512x512, .f32⟩
  | .hbm, ⟨35, _⟩ => ⟨S32x512x1, .f32⟩
  | .hbm, ⟨36, _⟩ => ⟨S32x512x512, .f32⟩
  | .hbm, ⟨37, _⟩ => ⟨S32x512x512, .f32⟩
  | .hbm, ⟨38, _⟩ => ⟨S_, .f32⟩
  | .hbm, ⟨39, _⟩ => ⟨S32x512, .f32⟩
  | .hbm, ⟨40, _⟩ => ⟨S_, .f32⟩
  | .hbm, ⟨41, _⟩ => ⟨S32x512, .f32⟩
  | .hbm, ⟨42, _⟩ => ⟨S32x512, .f32⟩
  | .hbm, ⟨43, _⟩ => ⟨S32x1x512, .f32⟩
  | .hbm, ⟨44, _⟩ => ⟨S32x512x512, .f32⟩
  | .hbm, ⟨45, _⟩ => ⟨S32x512x512, .f32⟩
  | .hbm, ⟨46, _⟩ => ⟨S32x512x512, .f32⟩
  | .hbm, ⟨47, _⟩ => ⟨S_, .f32⟩
  | .hbm, ⟨48, _⟩ => ⟨S32x512, .f32⟩
  | .hbm, ⟨49, _⟩ => ⟨S32x1x512, .f32⟩
  | .hbm, ⟨50, _⟩ => ⟨S32x512x512, .f32⟩
  | .hbm, ⟨51, _⟩ => ⟨S32x512x512, .f32⟩
  | .hbm, ⟨52, _⟩ => ⟨S32x512x512, .f32⟩
  | .hbm, ⟨53, _⟩ => ⟨S32x512x512, .f32⟩
  | .hbm, ⟨54, _⟩ => ⟨S32x512x512, .f32⟩
  | .hbm, ⟨55, _⟩ => ⟨S32x512x2048, .f32⟩
  | .hbm, ⟨56, _⟩ => ⟨S32x512x512, .f32⟩
  | .hbm, ⟨57, _⟩ => ⟨S32x512x512, .f32⟩
  | .hbm, ⟨58, _⟩ => ⟨S32x512x2048, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_cst_4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  reducesTo_S32x512x512_S32x512_d2 : S32x512x512.ReducesTo [2] S32x512
  h_S_ : 0 < S_.numel
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  concatenates_S32x512x512_S32x512x512_S32x512x512_S32x512x512_S32x512x2048_d2 : Shape.Concatenates [S32x512x512, S32x512x512, S32x512x512, S32x512x512] S32x512x2048 2
  dot_S32x512x512_S32x512x512_S32x512x512_2_2_1_1_0_0_wf : DotDims.WF S32x512x512 S32x512x512 S32x512x512 [2] [2] [1] [1] [0] [0]
  dot_S32x512x512_S32x512x512_S32x512x512_2_1_1_2_0_0_wf : DotDims.WF S32x512x512 S32x512x512 S32x512x512 [2] [1] [1] [2] [0] [0]
  dot_S32x512x512_S32x512x512_S32x512x512_1_1_2_2_0_0_wf : DotDims.WF S32x512x512 S32x512x512 S32x512x512 [1] [1] [2] [2] [0] [0]

variable [Facts₀]

def dot_S32x512x512_S32x512x512_S32x512x512_2_2_1_1_0_0 : DotDims S32x512x512 S32x512x512 S32x512x512 where
  lhsContracting := [2]
  rhsContracting := [2]
  lhsNonContracting := [1]
  rhsNonContracting := [1]
  lhsBatch := [0]
  rhsBatch := [0]
  wf := dot_S32x512x512_S32x512x512_S32x512x512_2_2_1_1_0_0_wf
def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf
def dot_S32x512x512_S32x512x512_S32x512x512_1_1_2_2_0_0 : DotDims S32x512x512 S32x512x512 S32x512x512 where
  lhsContracting := [1]
  rhsContracting := [1]
  lhsNonContracting := [2]
  rhsNonContracting := [2]
  lhsBatch := [0]
  rhsBatch := [0]
  wf := dot_S32x512x512_S32x512x512_S32x512x512_1_1_2_2_0_0_wf

class Facts : Prop extends Facts₀ where

variable [Facts]
-- ==== Proof.Spec.lean ====
/-
  What both programs compute, written once over plain coordinates.

  One batch entry holds a premise matrix A (rows p, features d) and a hypothesis matrix B (rows h, features d), a bias
  u on the premise rows and a bias v on the hypothesis rows (each bias is -∞ on a padded row and 0 elsewhere). The
  score of the pair (p, h) is the inner product of row p of A with row h of B. The scores plus v, normalised by a
  softmax along h, weight the rows of B into an attended premise row; the scores plus u, normalised by a softmax along
  p, weight the rows of A into an attended hypothesis row. A softmax subtracts the running maximum (started at -∞, and
  compared with -∞ once more), exponentiates, and divides by the sum of the exponentials. Each output row joins four
  blocks of 512 entries side by side: the row itself, the attended row, their difference and their product.

  Everything is stated on the extended reals with the exact operations, so the only facts a proof needs about a sum
  or a maximum are which entries it ranges over.
-/
import Idealize.ShloMosaic.PureOps.Ideal
import Idealize.ShloMosaic.Lib.ValueIdx

noncomputable section

namespace Cert.Attend

open Idealize.ShloMosaic Idealize.ShloMosaic.ValueIdx

/-- The value of the 32-bit pattern of -∞, kept as the pattern: both programs spell it the same way. -/
abbrev negInf : EReal := Ideal.ofBits .f32 0xFF800000#32
/-- The value of the all-zero pattern. -/
abbrev zero32 : EReal := Ideal.ofBits .f32 0x00000000#32

section OneBatch

variable (A B : Fin 512 → Fin 512 → EReal) (u v : Fin 512 → EReal)

/-- The score of premise row p against hypothesis row h: their inner product over the 512 features. -/
def score (p h : Fin 512) : EReal := ∑ d : Fin 512, A p d * B h d

/-! ### Softmax along the hypothesis axis -/

def logitH (p h : Fin 512) : EReal := score A B p h + v h
def maxH (p : Fin 512) : EReal :=
  max negInf ((Finset.univ : Finset (Fin 512)).fold max negInf fun h => logitH A B v p h)
def expH (p h : Fin 512) : EReal := Ideal.exp (logitH A B v p h - maxH A B v p)
def sumH (p : Fin 512) : EReal := ∑ h : Fin 512, expH A B v p h
def weightH (p h : Fin 512) : EReal := Ideal.div (expH A B v p h) (sumH A B v p)
/-- The attended premise row: the hypothesis rows weighted by the softmax along h. -/
def attendP (p d : Fin 512) : EReal := ∑ h : Fin 512, weightH A B v p h * B h d

/-! ### Softmax along the premise axis -/

def logitP (p h : Fin 512) : EReal := score A B p h + u p
def maxP (h : Fin 512) : EReal :=
  max negInf ((Finset.univ : Finset (Fin 512)).fold max negInf fun p => logitP A B u p h)
def expP (p h : Fin 512) : EReal := Ideal.exp (logitP A B u p h - maxP A B u h)
def sumP (h : Fin 512) : EReal := ∑ p : Fin 512, expP A B u p h
def weightP (p h : Fin 512) : EReal := Ideal.div (expP A B u p h) (sumP A B u h)
/-- The attended hypothesis row: the premise rows weighted by the softmax along p. -/
def attendH (h d : Fin 512) : EReal := ∑ p : Fin 512, weightP A B u p h * A p d

end OneBatch

/-! ### Four blocks side by side -/

/-- The position inside its block of column j of a row of 2048 entries. -/
def col (j : Fin 2048) : Fin 512 := ⟨j.val % 512, Nat.mod_lt _ (by decide)⟩

/-- Row r of the joined array at column j: block j / 512 is, in order, X, Y, X - Y, X * Y, read at column j % 512. -/
def quad (X Y : Fin 512 → Fin 512 → EReal) (r : Fin 512) (j : Fin 2048) : EReal :=
  if j.val / 512 = 0 then X r (col j)
  else if j.val / 512 = 1 then Y r (col j)
  else if j.val / 512 = 2 then X r (col j) - Y r (col j)
  else X r (col j) * Y r (col j)

variable (X Y : Fin 512 → Fin 512 → EReal) (r : Fin 512) (j : Fin 2048) (e : Fin 512)

theorem quad_block0 (hj : j.val = e.val) : quad X Y r j = X r e := by
  have he := e.isLt
  have h0 : j.val / 512 = 0 := by omega
  have hc : col j = e := Fin.ext (by show j.val % 512 = e.val; omega)
  unfold quad; rw [if_pos h0, hc]

theorem quad_block1 (hj : j.val = 512 + e.val) : quad X Y r j = Y r e := by
  have he := e.isLt
  have h0 : ¬ j.val / 512 = 0 := by omega
  have h1 : j.val / 512 = 1 := by omega
  have hc : col j = e := Fin.ext (by show j.val % 512 = e.val; omega)
  unfold quad; rw [if_neg h0, if_pos h1, hc]

theorem quad_block2 (hj : j.val = 1024 + e.val) : quad X Y r j = X r e - Y r e := by
  have he := e.isLt
  have h0 : ¬ j.val / 512 = 0 := by omega
  have h1 : ¬ j.val / 512 = 1 := by omega
  have h2 : j.val / 512 = 2 := by omega
  have hc : col j = e := Fin.ext (by show j.val % 512 = e.val; omega)
  unfold quad; rw [if_neg h0, if_neg h1, if_pos h2, hc]

theorem quad_block3 (hj : j.val = 1536 + e.val) : quad X Y r j = X r e * Y r e := by
  have he := e.isLt
  have h0 : ¬ j.val / 512 = 0 := by omega
  have h1 : ¬ j.val / 512 = 1 := by omega
  have h2 : ¬ j.val / 512 = 2 := by omega
  have hc : col j = e := Fin.ext (by show j.val % 512 = e.val; omega)
  unfold quad; rw [if_neg h0, if_neg h1, if_neg h2, hc]

/-- Every column lies in exactly one of the four blocks. -/
theorem col_cases : (j.val = (col j).val) ∨ (j.val = 512 + (col j).val) ∨ (j.val = 1024 + (col j).val)
    ∨ (j.val = 1536 + (col j).val) := by
  have hj := j.isLt
  show j.val = j.val % 512 ∨ j.val = 512 + j.val % 512 ∨ j.val = 1024 + j.val % 512 ∨ j.val = 1536 + j.val % 512
  omega

/-! ### The two result arrays of the whole batch -/

/-- Batch entry b of a [32, 512, 512] array as a matrix. -/
def rows (x : (⟨3, ![32, 512, 512]⟩ : Shape).Idx → EReal) (b : Fin 32) : Fin 512 → Fin 512 → EReal :=
  fun p d => x (ix3 b p d)

/-- The bias of batch entry b from a padding mask: -∞ where the mask bit is set, 0 elsewhere. -/
def bias (mk : (⟨2, ![32, 512]⟩ : Shape).Idx → BitVec 1) (b : Fin 32) : Fin 512 → EReal :=
  fun r => Scalar.select (mk (ix2 b r)) negInf zero32

/-- The premise-side result: at (b, p, j), the joined row of premise row p and its attended row. -/
def outP (px hx : (⟨3, ![32, 512, 512]⟩ : Shape).Idx → EReal) (hm : (⟨2, ![32, 512]⟩ : Shape).Idx → BitVec 1) :
    (⟨3, ![32, 512, 2048]⟩ : Shape).Idx → EReal :=
  fun i => quad (rows px (i 0)) (attendP (rows px (i 0)) (rows hx (i 0)) (bias hm (i 0))) (i 1) (i 2)

/-- The hypothesis-side result: at (b, h, j), the joined row of hypothesis row h and its attended row. -/
def outH (px hx : (⟨3, ![32, 512, 512]⟩ : Shape).Idx → EReal) (pm : (⟨2, ![32, 512]⟩ : Shape).Idx → BitVec 1) :
    (⟨3, ![32, 512, 2048]⟩ : Shape).Idx → EReal :=
  fun i => quad (rows hx (i 0)) (attendH (rows px (i 0)) (rows hx (i 0)) (bias pm (i 0))) (i 1) (i 2)

end Cert.Attend

end
-- ==== Proof.RefSide.lean ====
/-
  The reference program, stage by stage, is the specification.

  Each stage of the reference is read at explicit coordinates (b, p, h) or (b, p) and identified with the
  one-batch function of the specification it computes: the inner-product scores, the two biased logit
  arrays, their running maxima, the exponentials, their sums, the normalised weights, and the two attended
  arrays. The two results join four blocks of 512 columns; a column is located in its block and the block's
  entry is read off.
-/
import proofs.«116262_j22548578304859_2_alg».proof.Proof.RefRead
import proofs.«116262_j22548578304859_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.RefSide

open Cert.ReferenceIdeal Cert.ReferenceIdeal.Gen Cert.ReferenceIdeal.ReadP Cert.Attend
open Idealize.ShloMosaic Idealize.ShloMosaic.ValueIdx Idealize.ShloMosaic.StableHlo

/-! ### Three facts about the shapes alone -/

/-- A maximum taken along the last axis of a [32, 512, 512] array, at (b, p): the fold of max from the initial value
    over the entries (b, p, k). -/
theorem reduceMax_d2 (x : S32x512x512.Idx → EReal) (init : S_.Idx → EReal)
    (h' : S32x512x512.ReducesTo [2] S32x512) (hu : 0 < S_.numel) (b : Fin 32) (p : Fin 512) :
    Host.reduce (FloatOps.maximumf (F := Ideal) (φ := .f32)) x init h' hu (ix2 b p)
      = (Finset.univ : Finset (Fin 512)).fold max (init (Shape.Idx.first hu)) fun k => x (ix3 b p k) := by
  have h : S32x512x512.Reduces [2] S32x512 := by decide
  refine (Host.reduce_eq_fold_single _ x init h' h hu (ix2 b p)).trans ?_
  show (Finset.univ : Finset (Fin 512)).fold max (init (Shape.Idx.first hu)) (x ∘ h.lift (ix2 b p)) = _
  refine Finset.fold_congr fun k _ => ?_
  exact congrArg x (funext fun a => Fin.ext (by match a with | ⟨0, _⟩ => rfl | ⟨1, _⟩ => rfl | ⟨2, _⟩ => rfl))

/-- A maximum taken along the middle axis, at (b, q): the fold of max from the initial value over the entries
    (b, k, q). -/
theorem reduceMax_d1 (x : S32x512x512.Idx → EReal) (init : S_.Idx → EReal)
    (h' : S32x512x512.ReducesTo [1] S32x512) (hu : 0 < S_.numel) (b : Fin 32) (q : Fin 512) :
    Host.reduce (FloatOps.maximumf (F := Ideal) (φ := .f32)) x init h' hu (ix2 b q)
      = (Finset.univ : Finset (Fin 512)).fold max (init (Shape.Idx.first hu)) fun k => x (ix3 b k q) := by
  have h : S32x512x512.Reduces [1] S32x512 := by decide
  refine (Host.reduce_eq_fold_single _ x init h' h hu (ix2 b q)).trans ?_
  show (Finset.univ : Finset (Fin 512)).fold max (init (Shape.Idx.first hu)) (x ∘ h.lift (ix2 b q)) = _
  refine Finset.fold_congr fun k _ => ?_
  exact congrArg x (funext fun a => Fin.ext (by match a with | ⟨0, _⟩ => rfl | ⟨1, _⟩ => rfl | ⟨2, _⟩ => rfl))

/-- Four [32, 512, 512] arrays joined along the last axis, read at (b, p, j): when column j is entry e of block k,
    the value is array k at (b, p, e). -/
theorem concat4_piece (x0 x1 x2 x3 : S32x512x512.Idx → EReal)
    (hc : Shape.Concatenates ([(⟨S32x512x512, x0⟩ : (s : Shape) × (s.Idx → EReal)), ⟨S32x512x512, x1⟩,
      ⟨S32x512x512, x2⟩, ⟨S32x512x512, x3⟩].map (·.1)) S32x512x2048 2)
    (b : Fin 32) (p : Fin 512) (j : Fin 2048) (e : Fin 512) :
    (j.val = e.val → concatenate S32x512x2048 2 [⟨S32x512x512, x0⟩, ⟨S32x512x512, x1⟩, ⟨S32x512x512, x2⟩,
        ⟨S32x512x512, x3⟩] hc (ix3 b p j) = x0 (ix3 b p e))
    ∧ (j.val = 512 + e.val → concatenate S32x512x2048 2 [⟨S32x512x512, x0⟩, ⟨S32x512x512, x1⟩, ⟨S32x512x512, x2⟩,
        ⟨S32x512x512, x3⟩] hc (ix3 b p j) = x1 (ix3 b p e))
    ∧ (j.val = 1024 + e.val → concatenate S32x512x2048 2 [⟨S32x512x512, x0⟩, ⟨S32x512x512, x1⟩, ⟨S32x512x512, x2⟩,
        ⟨S32x512x512, x3⟩] hc (ix3 b p j) = x2 (ix3 b p e))
    ∧ (j.val = 1536 + e.val → concatenate S32x512x2048 2 [⟨S32x512x512, x0⟩, ⟨S32x512x512, x1⟩, ⟨S32x512x512, x2⟩,
        ⟨S32x512x512, x3⟩] hc (ix3 b p j) = x3 (ix3 b p e)) := by
  have hoff : ∀ c : Fin S32x512x512.rank, c.cast (rfl : S32x512x512.rank = S32x512x2048.rank) ≠ (2 : Fin 3) →
      ((ix3 b p e : S32x512x512.Idx) c).val = ((ix3 b p j : S32x512x2048.Idx) (c.cast rfl)).val := fun c hcne => by
    match c with
    | ⟨0, _⟩ => rfl
    | ⟨1, _⟩ => rfl
    | ⟨2, _⟩ => exact absurd rfl hcne
  refine ⟨fun hj => ?_, fun hj => ?_, fun hj => ?_, fun hj => ?_⟩
  · exact concatenate_apply_piece 2 _ hc (ix3 b p j) 0 (by show (0 : Nat) < 4; omega) S32x512x512 x0 rfl rfl 0 rfl
      (ix3 b p e) hoff (by show 0 + e.val = j.val; omega)
  · exact concatenate_apply_piece 2 _ hc (ix3 b p j) 1 (by show (1 : Nat) < 4; omega) S32x512x512 x1 rfl rfl 512 rfl
      (ix3 b p e) hoff (by show 512 + e.val = j.val; omega)
  · exact concatenate_apply_piece 2 _ hc (ix3 b p j) 2 (by show (2 : Nat) < 4; omega) S32x512x512 x2 rfl rfl 1024 rfl
      (ix3 b p e) hoff (by show 1024 + e.val = j.val; omega)
  · exact concatenate_apply_piece 2 _ hc (ix3 b p j) 3 (by show (3 : Nat) < 4; omega) S32x512x512 x3 rfl rfl 1536 rfl
      (ix3 b p e) hoff (by show 1536 + e.val = j.val; omega)

/-- So the joined array at (b, p, j) is the four-block row of the specification built from the first two arrays,
    when the third is their difference and the fourth their product. -/
theorem concat4_quad (x0 x1 x2 x3 : S32x512x512.Idx → EReal)
    (hc : Shape.Concatenates ([(⟨S32x512x512, x0⟩ : (s : Shape) × (s.Idx → EReal)), ⟨S32x512x512, x1⟩,
      ⟨S32x512x512, x2⟩, ⟨S32x512x512, x3⟩].map (·.1)) S32x512x2048 2)
    (b : Fin 32) (Y : Fin 512 → Fin 512 → EReal)
    (h1 : ∀ p e, x1 (ix3 b p e) = Y p e)
    (h2 : ∀ p e, x2 (ix3 b p e) = x0 (ix3 b p e) - x1 (ix3 b p e))
    (h3 : ∀ p e, x3 (ix3 b p e) = x0 (ix3 b p e) * x1 (ix3 b p e))
    (p : Fin 512) (j : Fin 2048) :
    concatenate S32x512x2048 2 [⟨S32x512x512, x0⟩, ⟨S32x512x512, x1⟩, ⟨S32x512x512, x2⟩, ⟨S32x512x512, x3⟩] hc
        (ix3 b p j) = quad (rows x0 b) Y p j := by
  obtain ⟨c0, c1, c2, c3⟩ := concat4_piece x0 x1 x2 x3 hc b p j (col j)
  rcases col_cases j with hj | hj | hj | hj
  · rw [c0 hj, quad_block0 _ _ _ _ _ hj]; rfl
  · rw [c1 hj, quad_block1 _ _ _ _ _ hj, h1]
  · rw [c2 hj, quad_block2 _ _ _ _ _ hj, h2, h1]; rfl
  · rw [c3 hj, quad_block3 _ _ _ _ _ hj, h3, h1]; rfl

variable (px hx : (⟨S32x512x512, .f32⟩ : BufTy).Contents (Elt Ideal))
variable (hm pm : (⟨S32x512, .i1⟩ : BufTy).Contents (Elt Ideal))

/-! ### The scores -/

/-- Entry (b, p, h) of the first contraction is the inner product of premise row p and hypothesis row h of batch b. -/
theorem v0_at (b : Fin 32) (p h : Fin 512) :
    val_main_v0 (F := Ideal) px hx (ix3 b p h) = score (rows px b) (rows hx b) p h := by
  rw [val_main_v0_apply]
  unfold score rows
  refine Finset.sum_congr rfl fun k _ => ?_
  have el : lidx_main_v0 (ix3 b p h) k = ix3 b p k :=
    funext fun a => Fin.ext (by match a with | ⟨0, _⟩ => rfl | ⟨1, _⟩ => rfl | ⟨2, _⟩ => rfl)
  have er : ridx_main_v0 (ix3 b p h) k = ix3 b h k :=
    funext fun a => Fin.ext (by match a with | ⟨0, _⟩ => rfl | ⟨1, _⟩ => rfl | ⟨2, _⟩ => rfl)
  rw [el, er]

/-! ### The two biases -/

/-- The hypothesis-side bias at (b, h): -∞ where the hypothesis mask is set, 0 elsewhere. -/
theorem v1_at (b : Fin 32) (h : Fin 512) :
    val_main_v1 (F := Ideal) hm (ix2 b h) = bias hm b h := by
  rw [val_main_v1_apply, val_main_call0_v1_apply, val_main_cst_apply, val_main_call0_v2_apply,
    val_main_call0_v0_apply, val_main_cst_0_apply]
  rfl

/-- The premise-side bias at (b, p): -∞ where the premise mask is set, 0 elsewhere. -/
theorem v2_at (b : Fin 32) (p : Fin 512) :
    val_main_v2 (F := Ideal) pm (ix2 b p) = bias pm b p := by
  rw [val_main_v2_apply, val_main_call1_v1_apply, val_main_cst_1_apply, val_main_call1_v2_apply,
    val_main_call1_v0_apply, val_main_cst_2_apply]
  rfl

/-! ### The softmax along the hypothesis axis -/

/-- The hypothesis bias spread over the premise rows: at (b, p, h) it is the bias of (b, h). -/
theorem v4_at (b : Fin 32) (p h : Fin 512) :
    val_main_v4 (F := Ideal) hm (ix3 b p h) = bias hm b h := by
  rw [val_main_v4_apply, val_main_v3_apply]
  have e : idx_main_v3 (idx_main_v4 (ix3 b p h)) = ix2 b h :=
    funext fun a => Fin.ext (by match a with | ⟨0, _⟩ => rfl | ⟨1, _⟩ => rfl)
  rw [e, v1_at]

theorem v5_at (b : Fin 32) (p h : Fin 512) :
    val_main_v5 (F := Ideal) px hx hm (ix3 b p h) = logitH (rows px b) (rows hx b) (bias hm b) p h := by
  rw [val_main_v5_apply, v0_at, v4_at]
  rfl

/-- The running maximum along h, before it is compared with -∞ once more. -/
theorem v6_at (b : Fin 32) (p : Fin 512) :
    val_main_v6 (F := Ideal) px hx hm (ix2 b p)
      = (Finset.univ : Finset (Fin 512)).fold max negInf
          fun h => logitH (rows px b) (rows hx b) (bias hm b) p h := by
  unfold val_main_v6
  exact (reduceMax_d2 _ _ _ _ b p).trans (Finset.fold_congr fun k _ => v5_at px hx hm b p k)

theorem v7_at (i : S32x512.Idx) : val_main_v7 (F := Ideal) i = negInf := by
  rw [val_main_v7_apply, val_main_cst_4_apply]
  rfl

theorem v8_at (b : Fin 32) (p : Fin 512) :
    val_main_v8 (F := Ideal) px hx hm (ix2 b p) = maxH (rows px b) (rows hx b) (bias hm b) p := by
  rw [val_main_v8_apply, v7_at, v6_at]
  rfl

/-- The maximum of row (b, p) spread back along h. -/
theorem v10_at (b : Fin 32) (p h : Fin 512) :
    val_main_v10 (F := Ideal) px hx hm (ix3 b p h) = maxH (rows px b) (rows hx b) (bias hm b) p := by
  rw [val_main_v10_apply, val_main_v9_apply]
  have e : idx_main_v9 (idx_main_v10 (ix3 b p h)) = ix2 b p :=
    funext fun a => Fin.ext (by match a with | ⟨0, _⟩ => rfl | ⟨1, _⟩ => rfl)
  rw [e, v8_at]

theorem v12_at (b : Fin 32) (p h : Fin 512) :
    val_main_v12 (F := Ideal) px hx hm (ix3 b p h) = expH (rows px b) (rows hx b) (bias hm b) p h := by
  rw [val_main_v12_apply, val_main_v11_apply, v5_at, v10_at]
  rfl

/-- The sum of the exponentials of row (b, p): the initial value is zero. -/
theorem v13_at (b : Fin 32) (p : Fin 512) :
    val_main_v13 (F := Ideal) px hx hm (ix2 b p) = sumH (rows px b) (rows hx b) (bias hm b) p := by
  rw [val_main_v13_apply, val_main_cst_5_apply, Ideal.ofBits_def, Ideal.ofBits_zero_f32, zero_add]
  unfold sumH
  refine Finset.sum_congr rfl fun k _ => ?_
  have e : idx_main_v13 (ix2 b p) k = ix3 b p k :=
    funext fun a => Fin.ext (by match a with | ⟨0, _⟩ => rfl | ⟨1, _⟩ => rfl | ⟨2, _⟩ => rfl)
  rw [e, v12_at]

theorem v15_at (b : Fin 32) (p h : Fin 512) :
    val_main_v15 (F := Ideal) px hx hm (ix3 b p h) = sumH (rows px b) (rows hx b) (bias hm b) p := by
  rw [val_main_v15_apply, val_main_v14_apply]
  have e : idx_main_v14 (idx_main_v15 (ix3 b p h)) = ix2 b p :=
    funext fun a => Fin.ext (by match a with | ⟨0, _⟩ => rfl | ⟨1, _⟩ => rfl)
  rw [e, v13_at]

theorem v16_at (b : Fin 32) (p h : Fin 512) :
    val_main_v16 (F := Ideal) px hx hm (ix3 b p h) = weightH (rows px b) (rows hx b) (bias hm b) p h := by
  rw [val_main_v16_apply, v12_at, v15_at]
  rfl

/-- The attended premise row: the second contraction runs over the hypothesis rows. -/
theorem v17_at (b : Fin 32) (p d : Fin 512) :
    val_main_v17 (F := Ideal) px hx hm (ix3 b p d) = attendP (rows px b) (rows hx b) (bias hm b) p d := by
  rw [val_main_v17_apply]
  unfold attendP
  refine Finset.sum_congr rfl fun k _ => ?_
  have el : lidx_main_v17 (ix3 b p d) k = ix3 b p k :=
    funext fun a => Fin.ext (by match a with | ⟨0, _⟩ => rfl | ⟨1, _⟩ => rfl | ⟨2, _⟩ => rfl)
  have er : ridx_main_v17 (ix3 b p d) k = ix3 b k d :=
    funext fun a => Fin.ext (by match a with | ⟨0, _⟩ => rfl | ⟨1, _⟩ => rfl | ⟨2, _⟩ => rfl)
  rw [el, er, v16_at]
  rfl

/-! ### The softmax along the premise axis -/

/-- The premise bias spread over the hypothesis rows: at (b, p, h) it is the bias of (b, p). -/
theorem v19_at (b : Fin 32) (p h : Fin 512) :
    val_main_v19 (F := Ideal) pm (ix3 b p h) = bias pm b p := by
  rw [val_main_v19_apply, val_main_v18_apply]
  have e : idx_main_v18 (idx_main_v19 (ix3 b p h)) = ix2 b p :=
    funext fun a => Fin.ext (by match a with | ⟨0, _⟩ => rfl | ⟨1, _⟩ => rfl)
  rw [e, v2_at]

theorem v20_at (b : Fin 32) (p h : Fin 512) :
    val_main_v20 (F := Ideal) px hx pm (ix3 b p h) = logitP (rows px b) (rows hx b) (bias pm b) p h := by
  rw [val_main_v20_apply, v0_at, v19_at]
  rfl

/-- The running maximum along p, before it is compared with -∞ once more. -/
theorem v21_at (b : Fin 32) (h : Fin 512) :
    val_main_v21 (F := Ideal) px hx pm (ix2 b h)
      = (Finset.univ : Finset (Fin 512)).fold max negInf
          fun p => logitP (rows px b) (rows hx b) (bias pm b) p h := by
  unfold val_main_v21
  exact (reduceMax_d1 _ _ _ _ b h).trans (Finset.fold_congr fun k _ => v20_at px hx pm b k h)

theorem v22_at (i : S32x512.Idx) : val_main_v22 (F := Ideal) i = negInf := by
  rw [val_main_v22_apply, val_main_cst_7_apply]
  rfl

theorem v23_at (b : Fin 32) (h : Fin 512) :
    val_main_v23 (F := Ideal) px hx pm (ix2 b h) = maxP (rows px b) (rows hx b) (bias pm b) h := by
  rw [val_main_v23_apply, v22_at, v21_at]
  rfl

/-- The maximum of column (b, h) spread back along p. -/
theorem v25_at (b : Fin 32) (p h : Fin 512) :
    val_main_v25 (F := Ideal) px hx pm (ix3 b p h) = maxP (rows px b) (rows hx b) (bias pm b) h := by
  rw [val_main_v25_apply, val_main_v24_apply]
  have e : idx_main_v24 (idx_main_v25 (ix3 b p h)) = ix2 b h :=
    funext fun a => Fin.ext (by match a with | ⟨0, _⟩ => rfl | ⟨1, _⟩ => rfl)
  rw [e, v23_at]

theorem v27_at (b : Fin 32) (p h : Fin 512) :
    val_main_v27 (F := Ideal) px hx pm (ix3 b p h) = expP (rows px b) (rows hx b) (bias pm b) p h := by
  rw [val_main_v27_apply, val_main_v26_apply, v20_at, v25_at]
  rfl

/-- The sum of the exponentials of column (b, h): the initial value is zero. -/
theorem v28_at (b : Fin 32) (h : Fin 512) :
    val_main_v28 (F := Ideal) px hx pm (ix2 b h) = sumP (rows px b) (rows hx b) (bias pm b) h := by
  rw [val_main_v28_apply, val_main_cst_8_apply, Ideal.ofBits_def, Ideal.ofBits_zero_f32, zero_add]
  unfold sumP
  refine Finset.sum_congr rfl fun k _ => ?_
  have e : idx_main_v28 (ix2 b h) k = ix3 b k h :=
    funext fun a => Fin.ext (by match a with | ⟨0, _⟩ => rfl | ⟨1, _⟩ => rfl | ⟨2, _⟩ => rfl)
  rw [e, v27_at]

theorem v30_at (b : Fin 32) (p h : Fin 512) :
    val_main_v30 (F := Ideal) px hx pm (ix3 b p h) = sumP (rows px b) (rows hx b) (bias pm b) h := by
  rw [val_main_v30_apply, val_main_v29_apply]
  have e : idx_main_v29 (idx_main_v30 (ix3 b p h)) = ix2 b h :=
    funext fun a => Fin.ext (by match a with | ⟨0, _⟩ => rfl | ⟨1, _⟩ => rfl)
  rw [e, v28_at]

theorem v31_at (b : Fin 32) (p h : Fin 512) :
    val_main_v31 (F := Ideal) px hx pm (ix3 b p h) = weightP (rows px b) (rows hx b) (bias pm b) p h := by
  rw [val_main_v31_apply, v27_at, v30_at]
  rfl

/-- The attended hypothesis row: the third contraction runs over the premise rows. -/
theorem v32_at (b : Fin 32) (h d : Fin 512) :
    val_main_v32 (F := Ideal) px hx pm (ix3 b h d) = attendH (rows px b) (rows hx b) (bias pm b) h d := by
  rw [val_main_v32_apply]
  unfold attendH
  refine Finset.sum_congr rfl fun k _ => ?_
  have el : lidx_main_v32 (ix3 b h d) k = ix3 b k h :=
    funext fun a => Fin.ext (by match a with | ⟨0, _⟩ => rfl | ⟨1, _⟩ => rfl | ⟨2, _⟩ => rfl)
  have er : ridx_main_v32 (ix3 b h d) k = ix3 b k d :=
    funext fun a => Fin.ext (by match a with | ⟨0, _⟩ => rfl | ⟨1, _⟩ => rfl | ⟨2, _⟩ => rfl)
  rw [el, er, v31_at]
  rfl

/-! ### The two results -/

theorem refP_at (b : Fin 32) (p : Fin 512) (j : Fin 2048) :
    val_main_v35 (F := Ideal) px hx hm (ix3 b p j)
      = quad (rows px b) (attendP (rows px b) (rows hx b) (bias hm b)) p j := by
  unfold val_main_v35
  exact concat4_quad px (val_main_v17 (F := Ideal) px hx hm) (val_main_v33 (F := Ideal) px hx hm)
    (val_main_v34 (F := Ideal) px hx hm) _ b _ (fun p e => v17_at px hx hm b p e) (fun _ _ => rfl) (fun _ _ => rfl) p j

theorem refH_at (b : Fin 32) (h : Fin 512) (j : Fin 2048) :
    val_main_v38 (F := Ideal) px hx pm (ix3 b h j)
      = quad (rows hx b) (attendH (rows px b) (rows hx b) (bias pm b)) h j := by
  unfold val_main_v38
  exact concat4_quad hx (val_main_v32 (F := Ideal) px hx pm) (val_main_v36 (F := Ideal) px hx pm)
    (val_main_v37 (F := Ideal) px hx pm) _ b _ (fun h e => v32_at px hx pm b h e) (fun _ _ => rfl) (fun _ _ => rfl) h j

end Cert.RefSide

namespace Cert.RefSide

open Cert.ReferenceIdeal Cert.Attend
open Idealize.ShloMosaic Idealize.ShloMosaic.ValueIdx

/-- The premise-side result of the reference is the specification's. -/
theorem refP_eq (px hx : (⟨S32x512x512, .f32⟩ : BufTy).Contents (Elt Ideal)) (hm : (⟨S32x512, .i1⟩ : BufTy).Contents (Elt Ideal)) :
    Cert.ReferenceIdeal.ReadP.val_main_v35 (F := Ideal) px hx hm = Cert.Attend.outP px hx hm := by
  funext i
  obtain ⟨b, p, j, rfl⟩ : ∃ b p j, i = ix3 b p j := ⟨i 0, i 1, i 2, eq_ix3 i⟩
  exact refP_at px hx hm b p j

/-- The hypothesis-side result of the reference is the specification's. -/
theorem refH_eq (px hx : (⟨S32x512x512, .f32⟩ : BufTy).Contents (Elt Ideal)) (pm : (⟨S32x512, .i1⟩ : BufTy).Contents (Elt Ideal)) :
    Cert.ReferenceIdeal.ReadP.val_main_v38 (F := Ideal) px hx pm = Cert.Attend.outH px hx pm := by
  funext i
  obtain ⟨b, h, j, rfl⟩ : ∃ b h j, i = ix3 b h j := ⟨i 0, i 1, i 2, eq_ix3 i⟩
  exact refH_at px hx pm b h j

end Cert.RefSide

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibDotRowsT.lean ====
/-
  A matrix product against a transposed right operand, read at an entry.

  Both operands are stored row by row over the shared axis: the left operand is [m, K], the right operand is
  [n, K], and the product contracts the left operand's axis 1 with the right operand's axis 1 (the einsum
  mk,nk->mn). Its entry (p, q) is the sum over k of left (p, k) times right (q, k): row p of the left operand
  against row q of the right one. (The companion of the untransposed form, mk,kn->mn, which reads
  left (p, k) times right (k, q).)
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts the left operand's axis 1 (extent `K`) with the right operand's axis 1 and
    keeps the left operand's axis 0 and the right operand's axis 0 as the output's two axes; `SL` and `SR` are the
    operands' shapes. It expects `l`, `r`, `p`, `q` in scope under these names. -/
macro "dot_rows_t " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.LibRowReduce.lean ====
/-
  Reductions of a rank-2 array along one axis, read at the kept coordinate.

  A kernel's vector reduction of an [a, b] array along its SECOND axis keeps one value per row; along its FIRST axis,
  one value per column. Over the extended reals addition and the maximum are exact, commutative and associative, so
  a sum along a row is the plain sum of the row's b entries, ∑ k, src (r, k), and a maximum along a row (resp. a
  column) is the fold of max, from the accumulator's value, over the row's (resp. the column's) entries, whatever
  order the hardware takes them in. The index that a row's result r and a coordinate k on the reduced second axis name
  together is (r, k); a column's result j and a coordinate k on the reduced first axis name (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.RowReduce

open Idealize.ShloMosaic Idealize.ShloMosaic.ValueIdx

/-- Row r of the reduced array with coordinate k put back on the reduced (second) axis is the index (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its second axis, at the extended reals, read at row r: the sum of the
    row's b entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (lift_row h r k))

/-- A kernel's maximum of an [a, b] array along its second axis, read at row r: the fold of max, from the
    accumulator's value, over the row's b entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  exact congrArg (fun f => (Finset.univ : Finset (Fin b)).fold max (Ideal.ofBits φ acc) f)
    (funext fun k => congrArg src (lift_row h r k))

/-- A kernel's maximum of an [a, b] array along its first axis, read at column j: the fold of max, from the
    accumulator's value, over the column's a entries. -/
theorem multiReduction_maximumf_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) := by
  refine (Ideal.multiReduction_maximumf_single src acc h hφ hacc (ix1 j)).trans ?_
  exact congrArg (fun f => (Finset.univ : Finset (Fin a)).fold max (Ideal.ofBits φ acc) f)
    (funext fun k => congrArg src (lift_col h j k))

end Cert.RowReduce

end
-- ==== Proof.LibColBroadcast.lean ====
/-
  A column broadcast along the second axis, and a vector read as a column, at an index given by coordinates.

  A column, an array of shape [a, 1], broadcast along the second axis to [a, b] repeats the column in every one of
  the b columns: at (r, j) it reads the column's entry r, whatever j is. A vector of a entries reshaped to a
  column [a, 1] keeps its entries in order: the column reads, at (r, u), entry r of the vector. (The companions of
  the row forms: [1, b] broadcast to [a, b], and a vector [b] read as a row [1, b].)
-/
import Idealize.ShloMosaic.Lib.Pipeline.Value
import Idealize.ShloMosaic.Lib.ValueIdx

noncomputable section

namespace Cert.ColBroadcast

open Idealize.ShloMosaic Idealize.ShloMosaic.ValueIdx

/-- A column `[a, 1]` broadcast along the second axis to `[a, b]` reads, at `(r, j)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A vector of a entries cast to a column [a, 1] reads, at (r, u), entry r: the two indices have the same
    row-major position. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by have := u.isLt; omega
    rw [Shape.rowMajor_val_two, Shape.rowMajor_val_one]
    show r.val = r.val * 1 + u.val
    rw [hu]; omega)

end Cert.ColBroadcast

end
-- ==== Proof.KernelSoftH.lean ====
/-
  One grid point of the kernel, first half: the score matrix and the softmax along the hypothesis axis.

  At a grid point the body holds one batch entry: the premise block (a [1, 512, 512] array read as the matrix A with
  A p d its entry (0, p, d)), the hypothesis block (the matrix B likewise), the premise bias as a column [1, 512, 1]
  and the hypothesis bias as a row [1, 1, 512]. The body's first matrix product contracts the feature axis of both
  blocks, so its entry (p, h) is the score of row p of A against row h of B. Adding the hypothesis bias row, taking
  each row's maximum, exponentiating the differences, dividing by each row's sum and multiplying the result into B
  gives, at (p, d), the attended premise row of the specification. Each step is read at an entry given by its
  coordinates; a change of float format is the identity on the extended reals.
-/
import proofs.«116262_j22548578304859_2_alg».proof.Proof.Gen.KernelIdeal.Frame
import proofs.«116262_j22548578304859_2_alg».proof.Proof.Spec
import proofs.«116262_j22548578304859_2_alg».proof.Proof.LibDotRows
import proofs.«116262_j22548578304859_2_alg».proof.Proof.LibDotRowsT
import proofs.«116262_j22548578304859_2_alg».proof.Proof.LibRowReduce
import proofs.«116262_j22548578304859_2_alg».proof.Proof.LibColBroadcast
import Idealize.ShloMosaic.Lib.ValueLayout
import Idealize.ShloMosaic.Lib.ValueIdx
import Idealize.ShloMosaic.Lib.Pipeline.Value
import Idealize.ShloMosaic.PureOps.Ideal.Laws

noncomputable section

namespace Cert.KernelSide

open Idealize.ShloMosaic Idealize.ShloMosaic.ValueIdx Cert.KernelIdeal Cert.KernelIdeal.Gen
open Cert.Attend Cert.Hand

/-- A [1, 512, 512] block read as a matrix. -/
def matOf (x : Vec Ideal S1x512x512 .f32) : Fin 512 → Fin 512 → EReal := fun p d => x (ix3 (0 : Fin 1) p d)
/-- A [1, 512, 1] block read as a column of 512 entries. -/
def colOf (x : Vec Ideal S1x512x1 .f32) : Fin 512 → EReal := fun p => x (ix3 (0 : Fin 1) p (0 : Fin 1))
/-- A [1, 1, 512] block read as a row of 512 entries. -/
def rowOf (x : Vec Ideal S1x1x512 .f32) : Fin 512 → EReal := fun h => x (ix3 (0 : Fin 1) (0 : Fin 1) h)

variable (x0 x1 : Vec Ideal S1x512x512 .f32) (x2 : Vec Ideal S1x512x1 .f32) (x3 : Vec Ideal S1x1x512 .f32)

/-- The exponential of a vector, read at an index, is the exponential of the entry. -/
theorem exp_apply {s : Shape} {φ : FTy} (v : FVec Ideal s φ) (i : s.Idx) : exp v i = Ideal.exp (v i) := rfl

/-! ## The two blocks as matrices, and the score -/

theorem pay2_apply (p d : Fin 512) : k0_pay2 (F := Ideal) x0 (ix2 p d) = matOf x0 p d :=
  shapeCast_1ab_ab_apply x0 shapeCasts_S1x512x512_S512x512 p d

theorem pay3_apply (h d : Fin 512) : k0_pay3 (F := Ideal) x1 (ix2 h d) = matOf x1 h d :=
  shapeCast_1ab_ab_apply x1 shapeCasts_S1x512x512_S512x512 h d

/-- Contracting axis 1 of both operands: entry (p, q) pairs row p of the left with row q of the right. -/
theorem sum_rows_rows {φ₁ φ₂ : FTy} (l : FVec Ideal S512x512 φ₁) (r : FVec Ideal S512x512 φ₂) (p q : Fin 512) :
    ∑ c, l (dot_S512x512_S512x512_S512x512_1_1_0_0_n_n.lhsIdx (ix2 p q) c) * r (dot_S512x512_S512x512_S512x512_1_1_0_0_n_n.rhsIdx (ix2 p q) c)
      = ∑ k : Fin 512, l (ix2 p k) * r (ix2 q k) := by
  dot_rows_t dot_S512x512_S512x512_S512x512_1_1_0_0_n_n S512x512 S512x512 512

/-- Contracting axis 1 of the left operand with axis 0 of the right: the ordinary matrix product. -/
theorem sum_rows_cols {φ₁ φ₂ : FTy} (l : FVec Ideal S512x512 φ₁) (r : FVec Ideal S512x512 φ₂) (p q : Fin 512) :
    ∑ c, l (dot_S512x512_S512x512_S512x512_1_0_0_1_n_n.lhsIdx (ix2 p q) c) * r (dot_S512x512_S512x512_S512x512_1_0_0_1_n_n.rhsIdx (ix2 p q) c)
      = ∑ k : Fin 512, l (ix2 p k) * r (ix2 k q) := by
  dot_rows dot_S512x512_S512x512_S512x512_1_0_0_1_n_n S512x512 S512x512 512

/-- The body's first product at (p, h) is the score of premise row p against hypothesis row h. -/
theorem pay5_apply (p h : Fin 512) : k0_pay5 (F := Ideal) x0 x1 (ix2 p h) = score (matOf x0) (matOf x1) p h := by
  refine (Ideal.matmul_constant_zero_apply dot_S512x512_S512x512_S512x512_1_1_0_0_n_n (some .fp32) (k0_pay2 x0) (k0_pay3 x1) (ix2 p h)).trans ?_
  refine (sum_rows_rows (k0_pay2 x0) (k0_pay3 x1) p h).trans ?_
  unfold score
  exact Finset.sum_congr rfl fun k _ => by rw [pay2_apply, pay3_apply]

/-! ## The softmax along the hypothesis axis, one step at a time -/

/-- The scores plus the hypothesis bias row, repeated down the rows. -/
def kLogitH : FVec Ideal S512x512 .f32 :=
  addf (k0_pay5 x0 x1) (broadcastTo S512x512 (shapeCast S1x512 x3 shapeCasts_S1x1x512_S1x512) broadcasts_S1x512_S512x512)
/-- Each row's maximum, compared with -∞ once more. -/
def kMaxH : FVec Ideal S512 .f32 :=
  maximumf (broadcast S512 (Scalar.ofBits (F := Ideal) .f32 0xFF800000#32))
    (multiReduction (F := Ideal) .maximumf [1] S512 (kLogitH x0 x1 x3) 0xFF800000#32 reduces_S512x512_S512 (.inl rfl) rfl)
/-- The exponentials of the differences with the row's maximum. -/
def kExpH : FVec Ideal S512x512 .f32 :=
  exp (subf (kLogitH x0 x1 x3) (broadcastTo S512x512 (shapeCast S512x1 (kMaxH x0 x1 x3) shapeCasts_S512_S512x1) broadcasts_S512x1_S512x512))
/-- Each row's sum of exponentials. -/
def kSumH : FVec Ideal S512 .f32 :=
  multiReduction (F := Ideal) .add [1] S512 (kExpH x0 x1 x3) 0x00000000#32 reduces_S512x512_S512 (.inl rfl) rfl
/-- The weights: each exponential over its row's sum. -/
def kWeightH : FVec Ideal S512x512 .f32 :=
  divf (kExpH x0 x1 x3) (broadcastTo S512x512 (shapeCast S512x1 (kSumH x0 x1 x3) shapeCasts_S512_S512x1) broadcasts_S512x1_S512x512)

/-- The body's second product is the weights times the hypothesis block. -/
theorem pay7_eq : k0_pay7 (F := Ideal) x0 x1 x3
    = matmul dot_S512x512_S512x512_S512x512_1_0_0_1_n_n none (truncf .bf16 (kWeightH x0 x1 x3) bitsLt_bf16_f32)
        (truncf .bf16 (k0_pay3 x1) bitsLt_bf16_f32) (constant S512x512 .f32 0x00000000#32) := rfl

theorem kLogitH_apply (p h : Fin 512) :
    kLogitH x0 x1 x3 (ix2 p h) = logitH (matOf x0) (matOf x1) (rowOf x3) p h := by
  unfold kLogitH logitH
  rw [addf_apply, pay5_apply, broadcastTo_1b_ab_apply, shapeCast_1ab_ab_apply]
  rfl

theorem kMaxH_apply (p : Fin 512) : kMaxH x0 x1 x3 (ix1 p) = maxH (matOf x0) (matOf x1) (rowOf x3) p := by
  unfold kMaxH maxH
  rw [maximumf_apply, broadcast_apply]
  refine congrArg (max negInf) ?_
  refine (Cert.RowReduce.multiReduction_maximumf_row (kLogitH x0 x1 x3) 0xFF800000#32 reduces_S512x512_S512 (.inl rfl) rfl p).trans ?_
  exact congrArg (fun f => (Finset.univ : Finset (Fin 512)).fold max negInf f) (funext fun k => kLogitH_apply x0 x1 x3 p k)

theorem kExpH_apply (p h : Fin 512) :
    kExpH x0 x1 x3 (ix2 p h) = expH (matOf x0) (matOf x1) (rowOf x3) p h := by
  unfold kExpH expH
  rw [exp_apply, subf_apply, kLogitH_apply, Cert.ColBroadcast.broadcastTo_a1_ab_apply, Cert.ColBroadcast.shapeCast_col_apply, kMaxH_apply]

theorem kSumH_apply (p : Fin 512) : kSumH x0 x1 x3 (ix1 p) = sumH (matOf x0) (matOf x1) (rowOf x3) p := by
  unfold kSumH sumH
  refine (Cert.RowReduce.multiReduction_add_row (kExpH x0 x1 x3) 0x00000000#32 reduces_S512x512_S512 (.inl rfl) rfl p).trans ?_
  exact Finset.sum_congr rfl fun k _ => kExpH_apply x0 x1 x3 p k

theorem kWeightH_apply (p h : Fin 512) :
    kWeightH x0 x1 x3 (ix2 p h) = weightH (matOf x0) (matOf x1) (rowOf x3) p h := by
  unfold kWeightH weightH
  rw [divf_apply, kExpH_apply, Cert.ColBroadcast.broadcastTo_a1_ab_apply, Cert.ColBroadcast.shapeCast_col_apply, kSumH_apply]

/-- The body's second product at (p, d) is the attended premise row. -/
theorem pay7_apply (p d : Fin 512) :
    k0_pay7 (F := Ideal) x0 x1 x3 (ix2 p d) = attendP (matOf x0) (matOf x1) (rowOf x3) p d := by
  rw [pay7_eq]
  refine (Ideal.matmul_constant_zero_apply dot_S512x512_S512x512_S512x512_1_0_0_1_n_n none _ _ (ix2 p d)).trans ?_
  refine (sum_rows_cols _ _ p d).trans ?_
  unfold attendP
  refine Finset.sum_congr rfl fun k _ => ?_
  rw [truncf_apply, truncf_apply, kWeightH_apply, pay3_apply]

end Cert.KernelSide

end
-- ==== Proof.LibDotCols.lean ====
/-
  A matrix product that contracts the FIRST axis of both operands, read at an entry.

  Both operands are stored with the shared axis first: the left operand is [K, m], the right operand is [K, n], and
  the product contracts the left operand's axis 0 with the right operand's axis 0 (the einsum km,kn->mn, a product
  with the left operand transposed). Its entry (p, q) is the sum over k of left (k, p) times right (k, q): column p
  of the left operand against column q of the right one. (The companions: mk,kn->mn reads left (p, k) times
  right (k, q), and mk,nk->mn reads left (p, k) times right (q, k).)
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 k p) * r (ix2 k q)` for a
    dimension record `D` that contracts the left operand's axis 0 (extent `K`) with the right operand's axis 0 and keeps
    the left operand's axis 1 and the right operand's axis 1 as the output's two axes; `SL` and `SR` are the operands'
    shapes. It expects `l`, `r`, `p`, `q` in scope under these names. -/
macro "dot_cols " D:term:max SL:term:max SR:term:max K:term:max : tactic => `(tactic| (
  have l0 : ∀ c, ((($D).lhsIdx (ValueIdx.ix2 p q) c) 0).val = (c ⟨0, by decide⟩).val := fun c =>
    ($D).lhsIdx_val_of_single rfl (ValueIdx.ix2 p q) c
  have l1 : ∀ c, ((($D).lhsIdx (ValueIdx.ix2 p q) c) 1).val = p.val := fun c => by
    unfold DotDims.lhsIdx
    rw [dif_neg (show ¬(1 : Fin ($SL).rank) ∈ ($D).lhsBatch by decide), dif_pos (show (1 : Fin ($SL).rank) ∈ ($D).lhsNonContracting by decide)]
    rfl
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 k p := funext fun a => Fin.ext (by
    match a with
    | ⟨0, _⟩ => exact (l0 _).trans hk
    | ⟨1, _⟩ => exact l1 _)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.KernelSoftP.lean ====
/-
  One grid point of the kernel, second half: the softmax along the premise axis.

  The same score matrix plus the premise bias, a column repeated along the rows' entries, is normalised down each
  COLUMN h: the column's maximum (compared with -∞ once more), the exponentials of the differences, the column's sum,
  the quotient. The body's third product contracts the premise axis of these weights with the premise axis of the
  premise block, so its entry (h, d) pairs column h of the weights with column d of A: the attended hypothesis row of
  the specification.
-/
import proofs.«116262_j22548578304859_2_alg».proof.Proof.KernelSoftH
import proofs.«116262_j22548578304859_2_alg».proof.Proof.LibDotCols
import proofs.«116262_j22548578304859_2_alg».proof.Proof.LibColSum
import proofs.«116262_j22548578304859_2_alg».proof.Proof.LibRowCast

noncomputable section

namespace Cert.KernelSide

open Idealize.ShloMosaic Idealize.ShloMosaic.ValueIdx Cert.KernelIdeal Cert.KernelIdeal.Gen
open Cert.Attend Cert.Hand

variable (x0 x1 : Vec Ideal S1x512x512 .f32) (x2 : Vec Ideal S1x512x1 .f32) (x3 : Vec Ideal S1x1x512 .f32)

/-- Contracting axis 0 of both operands: entry (p, q) pairs column p of the left with column q of the right. -/
theorem sum_cols_cols {φ₁ φ₂ : FTy} (l : FVec Ideal S512x512 φ₁) (r : FVec Ideal S512x512 φ₂) (p q : Fin 512) :
    ∑ c, l (dot_S512x512_S512x512_S512x512_0_0_1_1_n_n.lhsIdx (ix2 p q) c) * r (dot_S512x512_S512x512_S512x512_0_0_1_1_n_n.rhsIdx (ix2 p q) c)
      = ∑ k : Fin 512, l (ix2 k p) * r (ix2 k q) := by
  dot_cols dot_S512x512_S512x512_S512x512_0_0_1_1_n_n S512x512 S512x512 512

/-- The scores plus the premise bias column, repeated along each row. -/
def kLogitP : FVec Ideal S512x512 .f32 :=
  addf (k0_pay5 x0 x1) (broadcastTo S512x512 (shapeCast S512x1 x2 shapeCasts_S1x512x1_S512x1) broadcasts_S512x1_S512x512)
/-- Each column's maximum, compared with -∞ once more. -/
def kMaxP : FVec Ideal S512 .f32 :=
  maximumf (broadcast S512 (Scalar.ofBits (F := Ideal) .f32 0xFF800000#32))
    (multiReduction (F := Ideal) .maximumf [0] S512 (kLogitP x0 x1 x2) 0xFF800000#32 reduces_S512x512_S512_2 (.inl rfl) rfl)
/-- The exponentials of the differences with the column's maximum. -/
def kExpP : FVec Ideal S512x512 .f32 :=
  exp (subf (kLogitP x0 x1 x2) (broadcastTo S512x512 (shapeCast S1x512 (kMaxP x0 x1 x2) shapeCasts_S512_S1x512) broadcasts_S1x512_S512x512))
/-- Each column's sum of exponentials. -/
def kSumP : FVec Ideal S512 .f32 :=
  multiReduction (F := Ideal) .add [0] S512 (kExpP x0 x1 x2) 0x00000000#32 reduces_S512x512_S512_2 (.inl rfl) rfl
/-- The weights: each exponential over its column's sum. -/
def kWeightP : FVec Ideal S512x512 .f32 :=
  divf (kExpP x0 x1 x2) (broadcastTo S512x512 (shapeCast S1x512 (kSumP x0 x1 x2) shapeCasts_S512_S1x512) broadcasts_S1x512_S512x512)

/-- The body's weights along the premise axis are these. -/
theorem pay6_eq : k0_pay6 (F := Ideal) x0 x1 x2 = kWeightP x0 x1 x2 := rfl

/-- The body's third product is the weights, premise axis first, against the premise block. -/
theorem pay8_eq : k0_pay8 (F := Ideal) (k0_pay4 x0) (k0_pay6 x0 x1 x2)
    = matmul dot_S512x512_S512x512_S512x512_0_0_1_1_n_n none (truncf .bf16 (kWeightP x0 x1 x2) bitsLt_bf16_f32)
        (truncf .bf16 (k0_pay2 x0) bitsLt_bf16_f32) (constant S512x512 .f32 0x00000000#32) := rfl

theorem kLogitP_apply (p h : Fin 512) :
    kLogitP x0 x1 x2 (ix2 p h) = logitP (matOf x0) (matOf x1) (colOf x2) p h := by
  unfold kLogitP logitP
  rw [addf_apply, pay5_apply, Cert.ColBroadcast.broadcastTo_a1_ab_apply, shapeCast_1ab_ab_apply]
  rfl

theorem kMaxP_apply (h : Fin 512) : kMaxP x0 x1 x2 (ix1 h) = maxP (matOf x0) (matOf x1) (colOf x2) h := by
  unfold kMaxP maxP
  rw [maximumf_apply, broadcast_apply]
  refine congrArg (max negInf) ?_
  refine (Cert.RowReduce.multiReduction_maximumf_col (kLogitP x0 x1 x2) 0xFF800000#32 reduces_S512x512_S512_2 (.inl rfl) rfl h).trans ?_
  exact congrArg (fun f => (Finset.univ : Finset (Fin 512)).fold max negInf f) (funext fun k => kLogitP_apply x0 x1 x2 k h)

theorem kExpP_apply (p h : Fin 512) :
    kExpP x0 x1 x2 (ix2 p h) = expP (matOf x0) (matOf x1) (colOf x2) p h := by
  unfold kExpP expP
  rw [exp_apply, subf_apply, kLogitP_apply, broadcastTo_1b_ab_apply, Cert.RowCast.shapeCast_row_apply, kMaxP_apply]

theorem kSumP_apply (h : Fin 512) : kSumP x0 x1 x2 (ix1 h) = sumP (matOf x0) (matOf x1) (colOf x2) h := by
  unfold kSumP sumP
  refine (Cert.ColSum.multiReduction_add_col (kExpP x0 x1 x2) 0x00000000#32 reduces_S512x512_S512_2 (.inl rfl) rfl h).trans ?_
  exact Finset.sum_congr rfl fun k _ => kExpP_apply x0 x1 x2 k h

theorem kWeightP_apply (p h : Fin 512) :
    kWeightP x0 x1 x2 (ix2 p h) = weightP (matOf x0) (matOf x1) (colOf x2) p h := by
  unfold kWeightP weightP
  rw [divf_apply, kExpP_apply, broadcastTo_1b_ab_apply, Cert.RowCast.shapeCast_row_apply, kSumP_apply]

/-- The body's third product at (h, d) is the attended hypothesis row. -/
theorem pay8_apply (h d : Fin 512) :
    k0_pay8 (F := Ideal) (k0_pay4 x0) (k0_pay6 x0 x1 x2) (ix2 h d) = attendH (matOf x0) (matOf x1) (colOf x2) h d := by
  rw [pay8_eq]
  refine (Ideal.matmul_constant_zero_apply dot_S512x512_S512x512_S512x512_0_0_1_1_n_n none _ _ (ix2 h d)).trans ?_
  refine (sum_cols_cols _ _ h d).trans ?_
  unfold attendH
  refine Finset.sum_congr rfl fun k _ => ?_
  rw [truncf_apply, truncf_apply, kWeightP_apply, pay2_apply]

end Cert.KernelSide

end
-- ==== Proof.KernelBlock.lean ====
/-
  One grid point of the kernel: what the body leaves in its two output blocks.

  Each output block is a [1, 512, 2048] buffer written by four stores, one per block of 512 columns: the input block
  itself, the attended rows, their difference and their product. Read at (0, p, j), the buffer is therefore the
  joined row of the specification: block j / 512 at column j % 512, over the matrices the input blocks are.
-/
import proofs.«116262_j22548578304859_2_alg».proof.Proof.KernelSoftH
import proofs.«116262_j22548578304859_2_alg».proof.Proof.KernelSoftP

noncomputable section

namespace Cert.KernelSide

open Idealize.ShloMosaic Idealize.ShloMosaic.ValueIdx Cert.KernelIdeal Cert.KernelIdeal.Gen
open Cert.Attend

variable (x0 x1 : Vec Ideal S1x512x512 .f32) (x2 : Vec Ideal S1x512x1 .f32) (x3 : Vec Ideal S1x1x512 .f32)

theorem zeros3 : (![0, 0, 0] : Fin 3 → Nat) = fun _ => 0 := funext fun a => by fin_cases a <;> rfl

/-- The body reads each input block whole. -/
theorem ld_x0 : View.ld x0 r0_0 = x0 := View.ld_unit_zero (S := S1x512x512) zeros3 _ x0
theorem ld_x1 : View.ld x1 r0_0 = x1 := View.ld_unit_zero (S := S1x512x512) zeros3 _ x1
theorem ld_x2 : View.ld x2 r0_2 = x2 := View.ld_unit_zero (S := S1x512x1) zeros3 _ x2
theorem ld_x3 : View.ld x3 r0_1 = x3 := View.ld_unit_zero (S := S1x1x512) zeros3 _ x3

/-- The premise-side output block as one function of its index. -/
def blockP : Vec Ideal S1x512x2048 .f32 :=
  fun y => quad (matOf x0) (attendP (matOf x0) (matOf x1) (rowOf x3)) (y 1) (y 2)
/-- The hypothesis-side output block as one function of its index. -/
def blockH : Vec Ideal S1x512x2048 .f32 :=
  fun y => quad (matOf x1) (attendH (matOf x0) (matOf x1) (colOf x2)) (y 1) (y 2)

/-- A store of a [1, 512, 512] value at column offset c of the [1, 512, 2048] buffer: its entry (a, p, e) lands at row p,
    column c + e. If the value there is what the joined row holds at that column, the store is a block of the joined
    row. -/
theorem piece_eq (X Y : Fin 512 → Fin 512 → EReal) (c : ℕ)
    (inb : ∀ a, (![0, 0, c] : Fin 3 → ℕ) a + S1x512x512.size a ≤ S1x512x2048.size a)
    (w : Vec Ideal S1x512x512 .f32) (Z : Fin 512 → Fin 512 → EReal)
    (hw : ∀ (a : Fin 1) (p e : Fin 512), w (ix3 a p e) = Z p e)
    (hq : ∀ (p : Fin 512) (j : Fin 2048) (e : Fin 512), j.val = c + e.val → quad X Y p j = Z p e)
    (x : (Rect.unit (s := S1x512x2048) ![0, 0, c] S1x512x512.size inb).shape.Idx) :
    w x = (fun y : S1x512x2048.Idx => quad X Y (y 1) (y 2))
      ((Rect.unit (s := S1x512x2048) ![0, 0, c] S1x512x512.size inb).emb x) := by
  obtain ⟨a, p, e, rfl⟩ : ∃ (a : Fin 1) (p e : Fin 512), x = ix3 a p e := ⟨x 0, x 1, x 2, eq_ix3 x⟩
  have h1 : ((Rect.unit (s := S1x512x2048) ![0, 0, c] S1x512x512.size inb).emb (ix3 a p e)) 1 = p :=
    Fin.ext (by show 0 + 1 * p.val = p.val; omega)
  have h2 : (((Rect.unit (s := S1x512x2048) ![0, 0, c] S1x512x512.size inb).emb (ix3 a p e)) 2).val = c + e.val := by
    show c + 1 * e.val = c + e.val; omega
  show w (ix3 a p e) = quad X Y _ _
  rw [hw, h1]
  exact (hq p _ e h2).symm

/-- The premise-side output block after the body is the joined row of each premise row and its attended row. -/
theorem out4_eq : out0_4 (F := Ideal) x0 x1 x2 x3 = blockP x0 x1 x3 := by
  funext y
  unfold out0_4
  rw [ld_x0, ld_x1, ld_x3]
  refine View.canon_apply_of_pieces (blockP x0 x1 x3) _ ?_ y (cover0_4 _ _ _ _ y)
  intro pc hpc x
  simp only [List.mem_cons, List.not_mem_nil, or_false] at hpc
  rcases hpc with rfl | rfl | rfl | rfl
  · exact piece_eq _ _ 1536 inb_S1x512x2048_S1x512x512_0_0_1536 _ (fun p e => matOf x0 p e * attendP (matOf x0) (matOf x1) (rowOf x3) p e)
      (fun a p e => by
        show shapeCast S1x512x512 (mulf (k0_pay2 x0) (k0_pay7 x0 x1 x3)) shapeCasts_S512x512_S1x512x512 (ix3 a p e) = _
        rw [shapeCast_ab_1ab_apply, mulf_apply, pay2_apply, pay7_apply])
      (fun p j e hj => quad_block3 _ _ p j e hj) x
  · exact piece_eq _ _ 1024 inb_S1x512x2048_S1x512x512_0_0_1024 _ (fun p e => matOf x0 p e - attendP (matOf x0) (matOf x1) (rowOf x3) p e)
      (fun a p e => by
        show shapeCast S1x512x512 (subf (k0_pay2 x0) (k0_pay7 x0 x1 x3)) shapeCasts_S512x512_S1x512x512 (ix3 a p e) = _
        rw [shapeCast_ab_1ab_apply, subf_apply, pay2_apply, pay7_apply])
      (fun p j e hj => quad_block2 _ _ p j e hj) x
  · exact piece_eq _ _ 512 inb_S1x512x2048_S1x512x512_0_0_512 _ (fun p e => attendP (matOf x0) (matOf x1) (rowOf x3) p e)
      (fun a p e => by
        show shapeCast S1x512x512 (k0_pay7 x0 x1 x3) shapeCasts_S512x512_S1x512x512 (ix3 a p e) = _
        rw [shapeCast_ab_1ab_apply, pay7_apply])
      (fun p j e hj => quad_block1 _ _ p j e hj) x
  · exact piece_eq _ _ 0 inb_S1x512x2048_S1x512x512_0_0_0 _ (fun p e => matOf x0 p e)
      (fun a p e => by
        show shapeCast S1x512x512 (k0_pay2 x0) shapeCasts_S512x512_S1x512x512 (ix3 a p e) = _
        rw [shapeCast_ab_1ab_apply, pay2_apply])
      (fun p j e hj => quad_block0 _ _ p j e (by omega)) x

/-- The hypothesis-side output block after the body is the joined row of each hypothesis row and its attended row. -/
theorem out5_eq : out0_5 (F := Ideal) x0 x1 x2 x3 = blockH x0 x1 x2 := by
  funext y
  unfold out0_5
  rw [ld_x0, ld_x1, ld_x2]
  refine View.canon_apply_of_pieces (blockH x0 x1 x2) _ ?_ y (cover0_5 _ _ _ _ y)
  intro pc hpc x
  simp only [List.mem_cons, List.not_mem_nil, or_false] at hpc
  rcases hpc with rfl | rfl | rfl | rfl
  · exact piece_eq _ _ 1536 inb_S1x512x2048_S1x512x512_0_0_1536 _ (fun h e => matOf x1 h e * attendH (matOf x0) (matOf x1) (colOf x2) h e)
      (fun a p e => by
        show shapeCast S1x512x512 (mulf (k0_pay3 x1) (k0_pay8 (k0_pay4 x0) (k0_pay6 x0 x1 x2))) shapeCasts_S512x512_S1x512x512 (ix3 a p e) = _
        rw [shapeCast_ab_1ab_apply, mulf_apply, pay3_apply, pay8_apply])
      (fun p j e hj => quad_block3 _ _ p j e hj) x
  · exact piece_eq _ _ 1024 inb_S1x512x2048_S1x512x512_0_0_1024 _ (fun h e => matOf x1 h e - attendH (matOf x0) (matOf x1) (colOf x2) h e)
      (fun a p e => by
        show shapeCast S1x512x512 (subf (k0_pay3 x1) (k0_pay8 (k0_pay4 x0) (k0_pay6 x0 x1 x2))) shapeCasts_S512x512_S1x512x512 (ix3 a p e) = _
        rw [shapeCast_ab_1ab_apply, subf_apply, pay3_apply, pay8_apply])
      (fun p j e hj => quad_block2 _ _ p j e hj) x
  · exact piece_eq _ _ 512 inb_S1x512x2048_S1x512x512_0_0_512 _ (fun h e => attendH (matOf x0) (matOf x1) (colOf x2) h e)
      (fun a p e => by
        show shapeCast S1x512x512 (k0_pay8 (k0_pay4 x0) (k0_pay6 x0 x1 x2)) shapeCasts_S512x512_S1x512x512 (ix3 a p e) = _
        rw [shapeCast_ab_1ab_apply, pay8_apply])
      (fun p j e hj => quad_block1 _ _ p j e hj) x
  · exact piece_eq _ _ 0 inb_S1x512x2048_S1x512x512_0_0_0 _ (fun h e => matOf x1 h e)
      (fun a p e => by
        show shapeCast S1x512x512 (k0_pay3 x1) shapeCasts_S512x512_S1x512x512 (ix3 a p e) = _
        rw [shapeCast_ab_1ab_apply, pay3_apply])
      (fun p j e hj => quad_block0 _ _ p j e (by omega)) x

end Cert.KernelSide

end
-- ==== Proof.KernelArray.lean ====
/-
  From grid points to whole arrays.

  The grid has one point per batch entry. Point t stages row t of the two inputs (the [1, 512, 512] blocks at block
  index (t, 0, 0)) and row t of the two biases, and writes back row t of the two results. The biases are computed
  before the launch: a select between -∞ and 0 on each mask bit, laid out as a column [32, 512, 1] and as a row
  [32, 1, 512]. So the block a point writes is the block, at batch entry t, of the specification's result array, and
  the 32 blocks tile each result array.
-/
import proofs.«116262_j22548578304859_2_alg».proof.Proof.Gen.KernelIdeal.Value
import proofs.«116262_j22548578304859_2_alg».proof.Proof.KernelBlock
import Idealize.ShloMosaic.Lib.StableHlo.Run

noncomputable section

namespace Cert.KernelSide

open Idealize.ShloMosaic Idealize.ShloMosaic.ValueIdx Idealize.ShloMosaic.TcCoe Idealize.SL.Sem
open Cert.KernelIdeal Cert.KernelIdeal.Gen Cert.Attend
open Idealize.ShloMosaic.Pipeline (Dat)

variable (m : (ℓ : Loc nD τ sig) → Buf (Elt Ideal) ℓ) (ρ : Dev nD → PrngReg)

/-! ## The bias arrays the launch finds -/

/-- A select between the two broadcast constants, laid out as a column, read at (b, p, 0): the bias of row p of batch
    entry b. -/
theorem bias_col_apply (mk : (⟨S32x512, .i1⟩ : BufTy).Contents (Elt Ideal)) (b : Fin 32) (p : Fin 512) (u : Fin 1) :
    broadcastInDim S32x512x1 ![0, 1] bcast_S32x512_S32x512x1_0_1
        (select mk (broadcastInDim S32x512 ![] bcast_S_S32x512 (constant (F := Ideal) S_ .f32 0xFF800000#32))
          (broadcastInDim S32x512 ![] bcast_S_S32x512 (constant (F := Ideal) S_ .f32 0x00000000#32))) (ix3 b p u)
      = bias mk b p := by
  refine (broadcastInDim_apply _ bcast_S32x512_S32x512x1_0_1 _ (ix3 b p u) (ix2 b p) (fun a => match a with
    | ⟨0, _⟩ => by show b.val = if (32 : Nat) = 1 then 0 else b.val; rw [if_neg (by decide)]
    | ⟨1, _⟩ => by show p.val = if (512 : Nat) = 1 then 0 else p.val; rw [if_neg (by decide)])).trans ?_
  rfl

/-- The same select laid out as a row, read at (b, 0, h). -/
theorem bias_row_apply (mk : (⟨S32x512, .i1⟩ : BufTy).Contents (Elt Ideal)) (b : Fin 32) (u : Fin 1) (h : Fin 512) :
    broadcastInDim S32x1x512 ![0, 2] bcast_S32x512_S32x1x512_0_2
        (select mk (broadcastInDim S32x512 ![] bcast_S_S32x512 (constant (F := Ideal) S_ .f32 0xFF800000#32))
          (broadcastInDim S32x512 ![] bcast_S_S32x512 (constant (F := Ideal) S_ .f32 0x00000000#32))) (ix3 b u h)
      = bias mk b h := by
  refine (broadcastInDim_apply _ bcast_S32x512_S32x1x512_0_2 _ (ix3 b u h) (ix2 b h) (fun a => match a with
    | ⟨0, _⟩ => by show b.val = if (32 : Nat) = 1 then 0 else b.val; rw [if_neg (by decide)]
    | ⟨1, _⟩ => by show h.val = if (512 : Nat) = 1 then 0 else h.val; rw [if_neg (by decide)])).trans ?_
  rfl

/-- The premise bias array as the launch finds it: the column layout of the select on the premise mask. -/
theorem V_bias_col (c : Dev nD) :
    (V m c main_v1 : (⟨S32x512x1, .f32⟩ : BufTy).Contents (Elt Ideal))
      = broadcastInDim S32x512x1 ![0, 1] bcast_S32x512_S32x512x1_0_1
          (select (m ((c : Thread nD τ).loc main_arg2)) (broadcastInDim S32x512 ![] bcast_S_S32x512 (constant (F := Ideal) S_ .f32 0xFF800000#32))
            (broadcastInDim S32x512 ![] bcast_S_S32x512 (constant (F := Ideal) S_ .f32 0x00000000#32))) := by
  dsimp only [V]
  simp only [hostOps0, hostOps0_1, hostOps0_2, hostOps0_3, hostOps0_4, List.flatten_cons, List.flatten_nil, List.append_nil,
    List.cons_append, List.nil_append]
  after_results
  rfl

/-- The hypothesis bias array as the launch finds it: the row layout of the select on the hypothesis mask. -/
theorem V_bias_row (c : Dev nD) :
    (V m c main_v3 : (⟨S32x1x512, .f32⟩ : BufTy).Contents (Elt Ideal))
      = broadcastInDim S32x1x512 ![0, 2] bcast_S32x512_S32x1x512_0_2
          (select (m ((c : Thread nD τ).loc main_arg3)) (broadcastInDim S32x512 ![] bcast_S_S32x512 (constant (F := Ideal) S_ .f32 0xFF800000#32))
            (broadcastInDim S32x512 ![] bcast_S_S32x512 (constant (F := Ideal) S_ .f32 0x00000000#32))) := by
  dsimp only [V]
  simp only [hostOps0, hostOps0_1, hostOps0_2, hostOps0_3, hostOps0_4, List.flatten_cons, List.flatten_nil, List.append_nil,
    List.cons_append, List.nil_append]
  after_results
  rfl

/-! ## The blocks a grid point stages -/

/-- Every window's block index at point t is (t, 0, 0) (decided over the 32 points). -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The batch entry a grid point works on. -/
def batchOf (t : Fin cfg0.N) : Fin 32 := ⟨t.val, t.isLt⟩

theorem blk0_apply (c : Dev nD) (t : Fin cfg0.N) (p d : Fin 512) :
    iblk m c 0 t (ix3 (0 : Fin 1) p d) = m ((c : Thread nD τ).loc main_arg0) (ix3 (batchOf t) p d) := by
  show V m c main_arg0 (((cfg0.win 0).blk t).view.emb (ix3 (0 : Fin 1) p d)) = _
  rw [V_main_arg0]
  refine congrArg _ (funext fun a => Fin.ext ?_)
  obtain ⟨⟨e0, e1, e2⟩, -⟩ := block_index t
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 512 + 1 * d.val = d.val; omega

theorem blk1_apply (c : Dev nD) (t : Fin cfg0.N) (h d : Fin 512) :
    iblk m c 1 t (ix3 (0 : Fin 1) h d) = m ((c : Thread nD τ).loc main_arg1) (ix3 (batchOf t) h d) := by
  show V m c main_arg1 (((cfg0.win 1).blk t).view.emb (ix3 (0 : Fin 1) h d)) = _
  rw [V_main_arg1]
  refine congrArg _ (funext fun a => Fin.ext ?_)
  obtain ⟨-, ⟨e0, e1, e2⟩, -⟩ := block_index t
  match a with
  | ⟨0, _⟩ => show win0_1.index t (0 : Fin 3) * 1 + 1 * 0 = t.val; omega
  | ⟨1, _⟩ => show win0_1.index t (1 : Fin 3) * 512 + 1 * h.val = h.val; omega
  | ⟨2, _⟩ => show win0_1.index t (2 : Fin 3) * 512 + 1 * d.val = d.val; omega

theorem blk2_apply (c : Dev nD) (t : Fin cfg0.N) (p : Fin 512) :
    iblk m c 2 t (ix3 (0 : Fin 1) p (0 : Fin 1)) = bias (m ((c : Thread nD τ).loc main_arg2)) (batchOf t) p := by
  show V m c main_v1 (((cfg0.win 2).blk t).view.emb (ix3 (0 : Fin 1) p (0 : Fin 1))) = _
  rw [V_bias_col]
  refine Eq.trans (congrArg _ (funext fun a => Fin.ext ?_)) (bias_col_apply _ (batchOf t) p (0 : Fin 1))
  obtain ⟨-, -, ⟨e0, e1, e2⟩, -⟩ := block_index t
  match a with
  | ⟨0, _⟩ => show win0_2.index t (0 : Fin 3) * 1 + 1 * 0 = t.val; omega
  | ⟨1, _⟩ => show win0_2.index t (1 : Fin 3) * 512 + 1 * p.val = p.val; omega
  | ⟨2, _⟩ => show win0_2.index t (2 : Fin 3) * 1 + 1 * 0 = 0; omega

theorem blk3_apply (c : Dev nD) (t : Fin cfg0.N) (h : Fin 512) :
    iblk m c 3 t (ix3 (0 : Fin 1) (0 : Fin 1) h) = bias (m ((c : Thread nD τ).loc main_arg3)) (batchOf t) h := by
  show V m c main_v3 (((cfg0.win 3).blk t).view.emb (ix3 (0 : Fin 1) (0 : Fin 1) h)) = _
  rw [V_bias_row]
  refine Eq.trans (congrArg _ (funext fun a => Fin.ext ?_)) (bias_row_apply _ (batchOf t) (0 : Fin 1) h)
  obtain ⟨-, -, -, ⟨e0, e1, e2⟩, -⟩ := block_index t
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * h.val = h.val; omega

/-! ## A point's output block is a block of the specification's array -/

/-- If the staged blocks are batch entry b of the arguments, the premise-side block at y is the premise-side result at
    (b, y 1, y 2). -/
theorem point_P (px hx : (⟨S32x512x512, .f32⟩ : BufTy).Contents (Elt Ideal)) (hm : (⟨S32x512, .i1⟩ : BufTy).Contents (Elt Ideal))
    (b : Fin 32) (x0 x1 : Vec Ideal S1x512x512 .f32) (x3 : Vec Ideal S1x1x512 .f32)
    (h0 : ∀ p d, x0 (ix3 (0 : Fin 1) p d) = px (ix3 b p d)) (h1 : ∀ h d, x1 (ix3 (0 : Fin 1) h d) = hx (ix3 b h d))
    (h3 : ∀ h, x3 (ix3 (0 : Fin 1) (0 : Fin 1) h) = bias hm b h)
    (y : S1x512x2048.Idx) (i : S32x512x2048.Idx) (hi0 : i 0 = b) (hi1 : i 1 = y 1) (hi2 : i 2 = y 2) :
    blockP x0 x1 x3 y = outP px hx hm i := by
  have eA : matOf x0 = rows px b := funext fun p => funext fun d => h0 p d
  have eB : matOf x1 = rows hx b := funext fun h => funext fun d => h1 h d
  have eV : rowOf x3 = bias hm b := funext h3
  unfold blockP outP
  rw [hi0, hi1, hi2, eA, eB, eV]

theorem point_H (px hx : (⟨S32x512x512, .f32⟩ : BufTy).Contents (Elt Ideal)) (pm : (⟨S32x512, .i1⟩ : BufTy).Contents (Elt Ideal))
    (b : Fin 32) (x0 x1 : Vec Ideal S1x512x512 .f32) (x2 : Vec Ideal S1x512x1 .f32)
    (h0 : ∀ p d, x0 (ix3 (0 : Fin 1) p d) = px (ix3 b p d)) (h1 : ∀ h d, x1 (ix3 (0 : Fin 1) h d) = hx (ix3 b h d))
    (h2 : ∀ p, x2 (ix3 (0 : Fin 1) p (0 : Fin 1)) = bias pm b p)
    (y : S1x512x2048.Idx) (i : S32x512x2048.Idx) (hi0 : i 0 = b) (hi1 : i 1 = y 1) (hi2 : i 2 = y 2) :
    blockH x0 x1 x2 y = outH px hx pm i := by
  have eA : matOf x0 = rows px b := funext fun p => funext fun d => h0 p d
  have eB : matOf x1 = rows hx b := funext fun h => funext fun d => h1 h d
  have eU : colOf x2 = bias pm b := funext h2
  unfold blockH outH
  rw [hi0, hi1, hi2, eA, eB, eU]

/-- WHAT POINT t WRITES BACK to the premise-side result is block t of the specification's array. -/
theorem flushedP_eq (c : Dev nD) (t : Fin cfg0.N) :
    (dats m 0 c).flushed 4 t = ((cfg0.win 4).blk t).view.read (Elt Ideal)
      (outP (m ((c : Thread nD τ).loc main_arg0)) (m ((c : Thread nD τ).loc main_arg1)) (m ((c : Thread nD τ).loc main_arg3))) := by
  rw [Cert.KernelIdeal.Value.flushed4]
  funext y
  show out0_4 (iblk m c 0 t) (iblk m c 1 t) (iblk m c 2 t) (iblk m c 3 t) y = outP _ _ _ (((cfg0.win 4).blk t).view.emb y)
  rw [out4_eq (iblk m c 0 t) (iblk m c 1 t) (iblk m c 2 t) (iblk m c 3 t)]
  obtain ⟨-, -, -, -, ⟨e0, e1, e2⟩, -⟩ := block_index t
  refine point_P _ _ _ (batchOf t) (iblk m c 0 t) (iblk m c 1 t) (iblk m c 3 t) (blk0_apply m c t) (blk1_apply m c t) (blk3_apply m c t) y _
    (Fin.ext ?_) (Fin.ext ?_) (Fin.ext ?_)
  · show win0_4.index t (0 : Fin 3) * 1 + 1 * (y 0).val = t.val
    have hy : (y 0).val < 1 := (y 0).isLt
    omega
  · show win0_4.index t (1 : Fin 3) * 512 + 1 * (y 1).val = (y 1).val; omega
  · show win0_4.index t (2 : Fin 3) * 2048 + 1 * (y 2).val = (y 2).val; omega

/-- WHAT POINT t WRITES BACK to the hypothesis-side result is block t of the specification's array. -/
theorem flushedH_eq (c : Dev nD) (t : Fin cfg0.N) :
    (dats m 0 c).flushed 5 t = ((cfg0.win 5).blk t).view.read (Elt Ideal)
      (outH (m ((c : Thread nD τ).loc main_arg0)) (m ((c : Thread nD τ).loc main_arg1)) (m ((c : Thread nD τ).loc main_arg2))) := by
  rw [Cert.KernelIdeal.Value.flushed5]
  funext y
  show out0_5 (iblk m c 0 t) (iblk m c 1 t) (iblk m c 2 t) (iblk m c 3 t) y = outH _ _ _ (((cfg0.win 5).blk t).view.emb y)
  rw [out5_eq (iblk m c 0 t) (iblk m c 1 t) (iblk m c 2 t) (iblk m c 3 t)]
  obtain ⟨-, -, -, -, -, ⟨e0, e1, e2⟩⟩ := block_index t
  refine point_H _ _ _ (batchOf t) (iblk m c 0 t) (iblk m c 1 t) (iblk m c 2 t) (blk0_apply m c t) (blk1_apply m c t) (blk2_apply m c t) y _
    (Fin.ext ?_) (Fin.ext ?_) (Fin.ext ?_)
  · show win0_5.index t (0 : Fin 3) * 1 + 1 * (y 0).val = t.val
    have hy : (y 0).val < 1 := (y 0).isLt
    omega
  · show win0_5.index t (1 : Fin 3) * 512 + 1 * (y 1).val = (y 1).val; omega
  · show win0_5.index t (2 : Fin 3) * 2048 + 1 * (y 2).val = (y 2).val; omega

/-! ## The 32 blocks tile each result array -/

theorem mem_blk4 (t : Fin cfg0.N) (i : S32x512x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v4_0).slice (win0_4.rect t)).set ↔ _
  rw [View.set_slice_whole, Rect.mem_set_unit]
  exact Iff.rfl

theorem mem_blk5 (t : Fin cfg0.N) (i : S32x512x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v4_1).slice (win0_5.rect t)).set ↔ _
  rw [View.set_slice_whole, Rect.mem_set_unit]
  exact Iff.rfl

/-- Index (b, r, j) of a result array lies in the block of grid point b. -/
theorem cover4 (i : S32x512x2048.Idx) :
    ∃ t : Fin cfg0.N, (cfg0.win 4).flush t = true ∧ i ∈ ((cfg0.win 4).blk t).view.set := by
  have hb : (i 0).val < 32 := (i 0).isLt
  have hr : (i 1).val < 512 := (i 1).isLt
  have hj : (i 2).val < 2048 := (i 2).isLt
  refine ⟨⟨(i 0).val, hb⟩, flush0_4 _, ?_⟩
  rw [mem_blk4]
  obtain ⟨-, -, -, -, ⟨e0, e1, e2⟩, -⟩ := block_index ⟨(i 0).val, hb⟩
  have e0 : win0_4.index ⟨(i 0).val, hb⟩ (0 : Fin 3) = (i 0).val := e0
  intro a
  match a with
  | ⟨0, _⟩ => show win0_4.index _ (0 : Fin 3) * 1 ≤ (i 0).val ∧ (i 0).val < win0_4.index _ (0 : Fin 3) * 1 + 1; rw [e0]; constructor <;> omega
  | ⟨1, _⟩ => show win0_4.index _ (1 : Fin 3) * 512 ≤ (i 1).val ∧ (i 1).val < win0_4.index _ (1 : Fin 3) * 512 + 512; rw [e1]; constructor <;> omega
  | ⟨2, _⟩ => show win0_4.index _ (2 : Fin 3) * 2048 ≤ (i 2).val ∧ (i 2).val < win0_4.index _ (2 : Fin 3) * 2048 + 2048; rw [e2]; constructor <;> omega

theorem cover5 (i : S32x512x2048.Idx) :
    ∃ t : Fin cfg0.N, (cfg0.win 5).flush t = true ∧ i ∈ ((cfg0.win 5).blk t).view.set := by
  have hb : (i 0).val < 32 := (i 0).isLt
  have hr : (i 1).val < 512 := (i 1).isLt
  have hj : (i 2).val < 2048 := (i 2).isLt
  refine ⟨⟨(i 0).val, hb⟩, flush0_5 _, ?_⟩
  rw [mem_blk5]
  obtain ⟨-, -, -, -, -, ⟨e0, e1, e2⟩⟩ := block_index ⟨(i 0).val, hb⟩
  have e0 : win0_5.index ⟨(i 0).val, hb⟩ (0 : Fin 3) = (i 0).val := e0
  intro a
  match a with
  | ⟨0, _⟩ => show win0_5.index _ (0 : Fin 3) * 1 ≤ (i 0).val ∧ (i 0).val < win0_5.index _ (0 : Fin 3) * 1 + 1; rw [e0]; constructor <;> omega
  | ⟨1, _⟩ => show win0_5.index _ (1 : Fin 3) * 512 ≤ (i 1).val ∧ (i 1).val < win0_5.index _ (1 : Fin 3) * 512 + 512; rw [e1]; constructor <;> omega
  | ⟨2, _⟩ => show win0_5.index _ (2 : Fin 3) * 2048 ≤ (i 2).val ∧ (i 2).val < win0_5.index _ (2 : Fin 3) * 2048 + 2048; rw [e2]; constructor <;> omega

/-! ## The run, with both result arrays named -/

theorem finalP (c : Dev nD) : (dats m 0 c).arrAt 4 cfg0.N
    = outP (m ((c : Thread nD τ).loc main_arg0)) (m ((c : Thread nD τ).loc main_arg1)) (m ((c : Thread nD τ).loc main_arg3)) :=
  (dats m 0 c).arrAt_eq_of_cover 4 _ (fun t _ => flushedP_eq m c t) cover4

theorem finalH (c : Dev nD) : (dats m 0 c).arrAt 5 cfg0.N
    = outH (m ((c : Thread nD τ).loc main_arg0)) (m ((c : Thread nD τ).loc main_arg1)) (m ((c : Thread nD τ).loc main_arg2)) :=
  (dats m 0 c).arrAt_eq_of_cover 5 _ (fun t _ => flushedH_eq m c t) cover5

/-- Every weakly fair execution of the idealized kernel terminates with the two results at the specification's arrays
    of the arguments, and the arguments unchanged. -/
theorem run : θ_run defs (onTc (τ := τ) (main (F := Ideal))) ⟨m, fun _ => 0, ρ⟩ fun r => ∀ c : Dev nD,
      r.2.mem ((c : Thread nD τ).loc main_v4_0)
        = outP (m ((c : Thread nD τ).loc main_arg0)) (m ((c : Thread nD τ).loc main_arg1)) (m ((c : Thread nD τ).loc main_arg3))
      ∧ r.2.mem ((c : Thread nD τ).loc main_v4_1)
        = outH (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (finalP m c), (h c).2.1.trans (finalH m c), (h c).2.2⟩)
    (Cert.KernelIdeal.Value.run_blocks m ρ)

end Cert.KernelSide

end
-- ==== Proof.lean ====
/-
  Two softmax-weighted products of a batch of premise and hypothesis matrices (masked cross attention), computed by a
  kernel with one grid point per batch entry and by a host program over the whole batch, are the same arrays on the
  extended reals.

  For each batch entry both programs form the score matrix (inner products of premise rows with hypothesis rows), add
  a bias that is -∞ on padded hypothesis rows (resp. padded premise rows) and 0 elsewhere, normalise by a softmax along
  the hypothesis axis (resp. the premise axis), and weight the hypothesis rows (resp. the premise rows) with the
  result; each output row joins the input row, the attended row, their difference and their product. Both programs
  take the same sums and maxima over the same entries with the same exact operations, so no algebraic law beyond
  re-indexing is needed, and the finiteness of the inputs is never used.

  Proof/Spec.lean states the two result arrays once over plain coordinates. Proof/KernelSoftH.lean, KernelSoftP.lean and
  KernelBlock.lean read one grid point of the kernel as that specification on one batch entry; Proof/KernelArray.lean
  assembles the 32 blocks into the whole arrays; Proof/RefSide.lean reads the host program's two results as the same
  arrays. The kernel's idealization rewrote no operation, so that conjunct is trivial.
-/
import proofs.«116262_j22548578304859_2_alg».proof.Defs
import proofs.«116262_j22548578304859_2_alg».proof.Proof.Gen.Kernel
import proofs.«116262_j22548578304859_2_alg».proof.Proof.Gen.Kernel.Skeleton
import proofs.«116262_j22548578304859_2_alg».proof.Proof.Gen.Kernel.Launch
import proofs.«116262_j22548578304859_2_alg».proof.Proof.Gen.Kernel.Points
import proofs.«116262_j22548578304859_2_alg».proof.Proof.Gen.Kernel.Frame
import proofs.«116262_j22548578304859_2_alg».proof.Proof.Gen.KernelIdeal
import proofs.«116262_j22548578304859_2_alg».proof.Proof.Gen.KernelIdeal.Skeleton
import proofs.«116262_j22548578304859_2_alg».proof.Proof.Gen.KernelIdeal.Launch
import proofs.«116262_j22548578304859_2_alg».proof.Proof.Gen.KernelIdeal.Points
import proofs.«116262_j22548578304859_2_alg».proof.Proof.Gen.KernelIdeal.Frame
import proofs.«116262_j22548578304859_2_alg».proof.Proof.Gen.KernelIdeal.Value
import proofs.«116262_j22548578304859_2_alg».proof.Proof.Gen.ReferenceIdeal
import proofs.«116262_j22548578304859_2_alg».proof.Proof.Gen.Pre_finite_inputs
import proofs.«116262_j22548578304859_2_alg».proof.Proof.RefRun
import proofs.«116262_j22548578304859_2_alg».proof.Proof.RefRead
import proofs.«116262_j22548578304859_2_alg».proof.Proof.RefSide
import proofs.«116262_j22548578304859_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The host program's run, with its two results forgotten. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the specification's two arrays of arguments that agree. -/
theorem algebraic : Cert.algebraic_KernelIdeal_ReferenceIdeal := by
  intro m ρ m' ρ' _ hagree
  refine ⟨_, _, Cert.KernelSide.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v35_eq, Cert.RefSide.refP_eq, (hagree c).1, (hagree c).2.1, (hagree c).2.2.2]
  · rw [Cert.ReferenceIdeal.ReadP.val_main_v38_eq, Cert.RefSide.refH_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
